-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 75
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1600000, .i1⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S1600000x1, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S128x128, .f32⟩
  | .hbm, ⟨48, _⟩ => ⟨S128x128, .f32⟩
  | .hbm, ⟨49, _⟩ => ⟨S1x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S1600000x1, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x128, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S128x64, .f32⟩
  | .hbm, ⟨72, _⟩ => ⟨S128x64, .f32⟩
  | .hbm, ⟨73, _⟩ => ⟨S1x64, .f32⟩
  | .hbm, ⟨74, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v31) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1600000, .i1⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S1600000x1, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S128x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S128x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | .hbm, ⟨58, _⟩ => ⟨S1600000, .i1⟩
  | .hbm, ⟨59, _⟩ => ⟨S1600000, .f32⟩
  | .hbm, ⟨60, _⟩ => ⟨S_, .f32⟩
  | .hbm, ⟨61, _⟩ => ⟨S100000, .f32⟩
  | .hbm, ⟨62, _⟩ => ⟨S1600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S1600000x1, .f32⟩
  | .hbm, ⟨83, _⟩ => ⟨S1600000x128, .f32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S100000x128, .f32⟩
  | .hbm, ⟨90, _⟩ => ⟨S100000x1, .f32⟩
  | .hbm, ⟨91, _⟩ => ⟨S100000x128, .f32⟩
  | .hbm, ⟨92, _⟩ => ⟨S100000x128, .f32⟩
  | .hbm, ⟨93, _⟩ => ⟨S128x64, .f32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S128x64, .f32⟩
  | .hbm, ⟨99, _⟩ => ⟨S100000x64, .f32⟩
  | .hbm, ⟨100, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_cst : Ref sig .tc := ⟨.hbm, 55, rfl⟩
abbrev main_call0_v0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.HeldRun.lean ====
/-
  The idealized kernel's run with its result named.

  @main is four segments: a stretch of host operations, the first dense layer as a grid of 20 row tiles, a second
  stretch of host operations, the second dense layer as a grid of 20 row tiles. The buffer contents at each
  boundary are a fold through these segments from the launch memory; the last boundary's contents give every
  buffer the program leaves, the result among them. This module states that: every weakly fair execution
  terminates, and every buffer the thread holds ends at the last boundary's contents. The result array is then
  the second grid's output array after its 20 write-backs.
-/
import proofs.«101645_j79955111182426_1_alg».proof.Proof.Gen.KernelIdeal.Frame

set_option maxRecDepth 16384

noncomputable section

namespace Cert.KernelIdeal.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and every buffer the thread holds ends at the contents of
    the last boundary of the fold. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hown; imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hprng, -⟩, -⟩
      imodintro
      isplitl [Hbufs]; · iexact Hbufs
      isplitl [Hprng]; · iexists _; iexact Hprng
      iexists ∅; iexact Howes)
    (QY := fun c s => ∀ b ∈ Pipeline.ucRefs τ sig, s.mem (((c : Thread nD τ)).1, b) = W4 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W4 m ρ c) s')
      isplitl [Hbufs] <;> iassumption)
    (hQ := fun s h => h)

/-- The result buffer ends holding the second grid's output array after its write-backs. -/
theorem result_eq (c : Dev nD) (r : PUnit × MemSt nD τ sig (Elt F))
    (h : ∀ c : Dev nD, ∀ b ∈ Pipeline.ucRefs τ sig, r.2.mem (((c : Thread nD τ)).1, b) = W4 m ρ c b) :
    r.2.mem ((c.tc : Thread nD τ).loc main_v56) = (dat1 (V3 m ρ) c).arrAt 5 cfg1.N :=
  (h c _ (mem_uc main_v56 (by decide))).trans (W4_arr m ρ c 5)

/-- The run with the result named: it ends at the second grid's output array after its write-backs, and the eight
    argument arrays end as launched (no host operation and no grid writes one). -/
theorem run_named : θ_run defs (onTc (τ := τ) (main (F := F))) ⟨m, fun _ => 0, ρ⟩ (fun r => ∀ c : Dev nD,
      r.2.mem ((c.tc : Thread nD τ).loc main_v56) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨result_eq m ρ c r h,
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c)⟩)
    (run_held m ρ)

end Cert.KernelIdeal.Held

end
-- ==== Proof.DenseTile.lean ====
/-
  One row tile of a dense layer, read entry by entry at the ideal values.

  A tile's body loads a [5000, 128] block of the aggregated features a, the matching block of the node features x, the
  two weights w, w' (already transposed: [128, n]) and the bias row b ([1, n]), and stores
      (a · w + x · w') + b        (the first layer then takes the maximum with 0).
  A change of float format is the identity on extended reals, a shape cast to the same shape is the identity, and a
  matrix product into a zero accumulator is the plain sum over the contracted axis. So entry (p, q) of what is stored is
      (∑ₖ a[p,k] · w[k,q] + ∑ₖ x[p,k] · w'[k,q]) + b[0,q].
-/
import proofs.«101645_j79955111182426_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ### The tile's matrix product with a [128, 128] weight, read at an index -/

theorem lhsA_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhsA_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhsA_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhsA_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Into a zero accumulator, entry (p, q) of the product of a [5000, 128] tile with a [128, 128] weight is the sum
    over the 128 shared columns/rows of the products of the tile's row p with the weight's column q. -/
theorem matmulA_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ### The tile's matrix product with a [128, 64] weight, read at an index -/

theorem lhsB_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem lhsB_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhsB_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhsB_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- Into a zero accumulator, entry (p, q) of the product of a [5000, 128] tile with a [128, 64] weight is the sum
    over the 128 shared columns/rows of the products of the tile's row p with the weight's column q. -/
theorem matmulB_apply {φ₁ φ₂ : FTy} (l : FVec Ideal S5000x128 φ₁) (r : FVec Ideal S128x64 φ₂) (p : Fin 5000) (q : Fin 64) :
    matmul dot_S5000x128_S128x64_S5000x64_1_0_0_1_n_n none l r (constant S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhsB_0 _ _
    | ⟨1, _⟩ => exact (lhsB_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ### The bias row spread over the tile's rows -/

theorem biasA_apply (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => by
    match a with
    | ⟨0, _⟩ => rfl
    | ⟨1, _⟩ => rfl)

theorem biasB_apply (b : FVec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => by
    match a with
    | ⟨0, _⟩ => rfl
    | ⟨1, _⟩ => rfl)

/-! ### What a tile stores, entry by entry -/

/-- First layer: the maximum with 0 of (a · w + x · w') + b at entry (p, q). -/
theorem layer1_tile (a x : Vec Ideal S5000x128 .f32) (w w' : Vec Ideal S128x128 .f32) (b : Vec Ideal S1x128 .f32)
    (p : Fin 5000) (q : Fin 128) :
    k0_pay1 a x w w' b (ix2 p q)
      = max (((∑ k : Fin 128, a (ix2 p k) * w (ix2 k q)) + ∑ k : Fin 128, x (ix2 p k) * w' (ix2 k q)) + b (ix2 0 q))
          (Ideal.ofBits .f32 0x00000000#32) := by
  unfold k0_pay1
  simp only [shapeCast_self]
  show max ((matmul (F := Ideal) dot_S5000x128_S128x128_S5000x128_1_0_0_1_n_n none _ _ _ (ix2 p q) + matmul (F := Ideal) dot_S5000x128_S128x128_S5000x128_1_0_0_1_n_n none _ _ _ (ix2 p q))
      + broadcastTo S5000x128 b broadcasts_S1x128_S5000x128 (ix2 p q)) _ = _
  rw [matmulA_apply, matmulA_apply, biasA_apply]
  rfl

/-- Second layer: (a · w + x · w') + b at entry (p, q). -/
theorem layer2_tile (a x : Vec Ideal S5000x128 .f32) (w w' : Vec Ideal S128x64 .f32) (b : Vec Ideal S1x64 .f32)
    (p : Fin 5000) (q : Fin 64) :
    k1_pay1 a x w w' b (ix2 p q)
      = ((∑ k : Fin 128, a (ix2 p k) * w (ix2 k q)) + ∑ k : Fin 128, x (ix2 p k) * w' (ix2 k q)) + b (ix2 0 q) := by
  unfold k1_pay1
  simp only [shapeCast_self]
  show (matmul (F := Ideal) dot_S5000x128_S128x64_S5000x64_1_0_0_1_n_n none _ _ _ (ix2 p q) + matmul (F := Ideal) dot_S5000x128_S128x64_S5000x64_1_0_0_1_n_n none _ _ _ (ix2 p q))
      + broadcastTo S5000x64 b broadcasts_S1x64_S5000x64 (ix2 p q) = _
  rw [matmulB_apply, matmulB_apply, biasB_apply]
  rfl

end Cert.KernelIdeal.Tile

end
-- ==== Proof.Layer2.lean ====
/-
  The second dense layer's grid, read as one whole-array function.

  The grid has 20 points; point t handles rows 5000·t … 5000·t + 4999. It is handed block t of the aggregated
  features a and of the node features x (both [100000, 128]), and the whole of the two weights w, w' ([128, 64])
  and of the bias row b ([1, 64]); it writes back block t of the output ([100000, 64]). Row r = 5000·t + p of the
  output therefore holds, in column q,
      (∑ₖ a[r,k] · w[k,q] + ∑ₖ x[r,k] · w'[k,q]) + b[0,q],
  the tile's entry (p, q) with each block read where it sits in its array. The 20 blocks tile the 100000 rows, so the
  output array after the grid is that function at every index.
-/
import proofs.«101645_j79955111182426_1_alg».proof.Proof.Gen.KernelIdeal.Frame
import proofs.«101645_j79955111182426_1_alg».proof.Proof.DenseTile

set_option maxRecDepth 16384

noncomputable section

namespace Cert.KernelIdeal.Layer2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- Entry (r, q) of the layer over whole arrays. -/
def entry (a x : S100000x128.Idx → Elt Ideal .f32) (w w' : S128x64.Idx → Elt Ideal .f32) (b : S1x64.Idx → Elt Ideal .f32)
    (r : Fin 100000) (q : Fin 64) : Elt Ideal .f32 :=
  ((∑ k : Fin 128, a (ix2 r k) * w (ix2 k q)) + ∑ k : Fin 128, x (ix2 r k) * w' (ix2 k q)) + b (ix2 0 q)

/-- The layer as one function of its five arrays. -/
def dense (a x : S100000x128.Idx → Elt Ideal .f32) (w w' : S128x64.Idx → Elt Ideal .f32) (b : S1x64.Idx → Elt Ideal .f32) :
    S100000x64.Idx → Elt Ideal .f32 := fun i => entry a x w w' b (i 0) (i 1)

/-- The printed index maps over the grid: the row-tiled windows (a, x, the output) sit at block row t and block column 0,
    the weights and the bias at block (0, 0). -/
theorem tile_at : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 20 := lt_of_lt_of_eq t.isLt N_1

/-- Row p of block t is row 5000·t + p of the array. -/
def row (t : Fin cfg1.N) (p : Fin 5000) : Fin 100000 := ⟨5000 * t.val + p.val, by have := point_lt t; have := p.isLt; omega⟩

/-! ### Each window's block, read where it sits in its array -/

theorem read_a (c : Dev nD) (t : Fin cfg1.N) (p : Fin 5000) (k : Fin 128) :
    iblk1 V c 0 t (ix2 p k) = V c (Pipeline.arrRef spec1 0) (ix2 (row t p) k) := by
  obtain ⟨e0, e1, -⟩ := tile_at t
  show V c (Pipeline.arrRef spec1 0) (((cfg1.win 0).blk t).view.emb (ix2 p k)) = _
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * k.val = k.val; omega

theorem read_x (c : Dev nD) (t : Fin cfg1.N) (p : Fin 5000) (k : Fin 128) :
    iblk1 V c 1 t (ix2 p k) = V c (Pipeline.arrRef spec1 1) (ix2 (row t p) k) := by
  obtain ⟨-, -, e0, e1, -⟩ := tile_at t
  show V c (Pipeline.arrRef spec1 1) (((cfg1.win 1).blk t).view.emb (ix2 p k)) = _
  refine congrArg _ (funext fun a => Fin.ext ?_)
  match a with
  | ⟨0, _⟩ => show win1_1.index t (0 : Fin 2) * 5000 + 1 * p.val = 5000 * t.val + p.val; omega
  | ⟨1, _⟩ => show win1_1.index t (1 : Fin 2) * 128 + 1 * k.val = k.val; omega

theorem read_w (c : Dev nD) (t : Fin cfg1.N) (k : Fin 128) (q : Fin 64) :
    iblk1 V c 2 t (ix2 k q) = V c (Pipeline.arrRef spec1 2) (ix2 k q) := by
  obtain ⟨-, -, -, -, e0, e1, -⟩ := tile_at t
  show V c (Pipeline.arrRef spec1 2) (((cfg1.win 2).blk t).view.emb (ix2 k q)) = _
  refine congrArg _ (funext fun a => Fin.ext ?_)
  match a with
  | ⟨0, _⟩ => show win1_2.index t (0 : Fin 2) * 128 + 1 * k.val = k.val; omega
  | ⟨1, _⟩ => show win1_2.index t (1 : Fin 2) * 64 + 1 * q.val = q.val; omega

theorem read_b (c : Dev nD) (t : Fin cfg1.N) (q : Fin 64) :
    iblk1 V c 3 t (ix2 (0 : Fin 1) q) = V c (Pipeline.arrRef spec1 3) (ix2 (0 : Fin 1) q) := by
  obtain ⟨-, -, -, -, -, -, e0, e1, -⟩ := tile_at t
  show V c (Pipeline.arrRef spec1 3) (((cfg1.win 3).blk t).view.emb (ix2 (0 : Fin 1) q)) = _
  refine congrArg _ (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 64 + 1 * q.val = q.val; omega

theorem read_w' (c : Dev nD) (t : Fin cfg1.N) (k : Fin 128) (q : Fin 64) :
    iblk1 V c 4 t (ix2 k q) = V c (Pipeline.arrRef spec1 4) (ix2 k q) := by
  obtain ⟨-, -, -, -, -, -, -, -, e0, e1, -⟩ := tile_at t
  show V c (Pipeline.arrRef spec1 4) (((cfg1.win 4).blk t).view.emb (ix2 k q)) = _
  refine congrArg _ (funext fun a => Fin.ext ?_)
  match a with
  | ⟨0, _⟩ => show win1_4.index t (0 : Fin 2) * 128 + 1 * k.val = k.val; omega
  | ⟨1, _⟩ => show win1_4.index t (1 : Fin 2) * 64 + 1 * q.val = q.val; omega

/-- Where entry (p, q) of the output's block t sits in the output array. -/
theorem out_at (t : Fin cfg1.N) (p : Fin 5000) (q : Fin 64) :
    ((cfg1.win 5).blk t).view.emb (ix2 p q) = ix2 (row t p) q := by
  obtain ⟨-, -, -, -, -, -, -, -, -, -, e0, e1⟩ := tile_at t
  refine funext fun a => Fin.ext ?_
  match a with
  | ⟨0, _⟩ => show win1_5.index t (0 : Fin 2) * 5000 + 1 * p.val = 5000 * t.val + p.val; omega
  | ⟨1, _⟩ => show win1_5.index t (1 : Fin 2) * 64 + 1 * q.val = q.val; omega

/-! ### What a point writes back, and the array after the grid -/

/-- What point t writes back is block t of the layer's function of the region's arrays. -/
theorem flushed_eq (c : Dev nD) (t : Fin cfg1.N) :
    (dat1 V c).flushed 5 t = ((cfg1.win 5).blk t).view.read (Elt Ideal)
      (dense (V c (Pipeline.arrRef spec1 0)) (V c (Pipeline.arrRef spec1 1)) (V c (Pipeline.arrRef spec1 2))
        (V c (Pipeline.arrRef spec1 4)) (V c (Pipeline.arrRef spec1 3))) := by
  show (cfg1.win 5).cut (grid1.coords t) ((dat1 V c).after 5 t) = _
  rw [after1_5]
  unfold out1_5
  rw [View.canon_unit_zero origin2]
  simp only [View.ld_unit_zero (S := S5000x128) origin2, View.ld_unit_zero (S := S128x64) origin2, View.ld_unit_zero (S := S1x64) origin2]
  funext y
  obtain ⟨p, q, rfl⟩ : ∃ (p : Fin 5000) (q : Fin 64), y = ix2 p q := ⟨y 0, y 1, eq_ix2 y⟩
  refine (Tile.layer2_tile (iblk1 V c 0 t) (iblk1 V c 1 t) (iblk1 V c 2 t) (iblk1 V c 4 t) (iblk1 V c 3 t) p q).trans ?_
  show _ = dense _ _ _ _ _ (((cfg1.win 5).blk t).view.emb (ix2 p q))
  rw [out_at t p q]
  simp only [read_a V c t p, read_x V c t p, read_w V c t, read_w' V c t, read_b V c t]
  rfl

/-- Every row of the output lies in some point's block: row r in block r / 5000. -/
theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  let t : Fin cfg1.N := ⟨(i 0).val / 5000, by rw [show cfg1.N = 20 from N_1]; omega⟩
  obtain ⟨-, -, -, -, -, -, -, -, -, -, e0, e1⟩ := tile_at t
  have ht : t.val = (i 0).val / 5000 := rfl
  refine ⟨t, flush1_5 t, ?_⟩
  show i ∈ ((View.whole main_v56).slice (win1_5.rect t)).set
  rw [View.set_slice_whole, Rect.mem_set_unit]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The output array after the grid is the layer's function of the region's arrays as it finds them. -/
theorem array_eq (c : Dev nD) :
    (dat1 V c).arrAt 5 cfg1.N
      = dense (V c (Pipeline.arrRef spec1 0)) (V c (Pipeline.arrRef spec1 1)) (V c (Pipeline.arrRef spec1 2))
          (V c (Pipeline.arrRef spec1 4)) (V c (Pipeline.arrRef spec1 3)) :=
  (dat1 V c).arrAt_eq_of_cover 5 _ (fun t _ => flushed_eq V c t) covered

end Cert.KernelIdeal.Layer2

end
-- ==== Proof.Layer1.lean ====
/-
  The first dense layer's grid, read as one whole-array function.

  The grid has 20 points; point t handles rows 5000·t … 5000·t + 4999. It is handed block t of the aggregated
  features a and of the node features x (both [100000, 128]), and the whole of the two weights w, w' ([128, 128])
  and of the bias row b ([1, 128]); it writes back block t of the output ([100000, 128]). Row r = 5000·t + p of the
  output therefore holds, in column q,
      max ((∑ₖ a[r,k] · w[k,q] + ∑ₖ x[r,k] · w'[k,q]) + b[0,q], 0),
  the tile's entry (p, q) with each block read where it sits in its array. The 20 blocks tile the 100000 rows, so the
  output array after the grid is that function at every index.
-/
import proofs.«101645_j79955111182426_1_alg».proof.Proof.Gen.KernelIdeal.Frame
import proofs.«101645_j79955111182426_1_alg».proof.Proof.DenseTile

set_option maxRecDepth 16384

noncomputable section

namespace Cert.KernelIdeal.Layer1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- Entry (r, q) of the layer over whole arrays. -/
def entry (a x : S100000x128.Idx → Elt Ideal .f32) (w w' : S128x128.Idx → Elt Ideal .f32) (b : S1x128.Idx → Elt Ideal .f32)
    (r : Fin 100000) (q : Fin 128) : Elt Ideal .f32 :=
  max (((∑ k : Fin 128, a (ix2 r k) * w (ix2 k q)) + ∑ k : Fin 128, x (ix2 r k) * w' (ix2 k q)) + b (ix2 0 q)) (Ideal.ofBits .f32 0x00000000#32)

/-- The layer as one function of its five arrays. -/
def dense (a x : S100000x128.Idx → Elt Ideal .f32) (w w' : S128x128.Idx → Elt Ideal .f32) (b : S1x128.Idx → Elt Ideal .f32) :
    S100000x128.Idx → Elt Ideal .f32 := fun i => entry a x w w' b (i 0) (i 1)

/-- The printed index maps over the grid: the row-tiled windows (a, x, the output) sit at block row t and block column 0,
    the weights and the bias at block (0, 0). -/
theorem tile_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 20 := lt_of_lt_of_eq t.isLt N_0

/-- Row p of block t is row 5000·t + p of the array. -/
def row (t : Fin cfg0.N) (p : Fin 5000) : Fin 100000 := ⟨5000 * t.val + p.val, by have := point_lt t; have := p.isLt; omega⟩

/-! ### Each window's block, read where it sits in its array -/

theorem read_a (c : Dev nD) (t : Fin cfg0.N) (p : Fin 5000) (k : Fin 128) :
    iblk0 V c 0 t (ix2 p k) = V c (Pipeline.arrRef spec0 0) (ix2 (row t p) k) := by
  obtain ⟨e0, e1, -⟩ := tile_at t
  show V c (Pipeline.arrRef spec0 0) (((cfg0.win 0).blk t).view.emb (ix2 p k)) = _
  refine congrArg _ (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

theorem read_x (c : Dev nD) (t : Fin cfg0.N) (p : Fin 5000) (k : Fin 128) :
    iblk0 V c 1 t (ix2 p k) = V c (Pipeline.arrRef spec0 1) (ix2 (row t p) k) := by
  obtain ⟨-, -, e0, e1, -⟩ := tile_at t
  show V c (Pipeline.arrRef spec0 1) (((cfg0.win 1).blk t).view.emb (ix2 p k)) = _
  refine congrArg _ (funext fun a => Fin.ext ?_)
  match a with
  | ⟨0, _⟩ => show win0_1.index t (0 : Fin 2) * 5000 + 1 * p.val = 5000 * t.val + p.val; omega
  | ⟨1, _⟩ => show win0_1.index t (1 : Fin 2) * 128 + 1 * k.val = k.val; omega

theorem read_w (c : Dev nD) (t : Fin cfg0.N) (k : Fin 128) (q : Fin 128) :
    iblk0 V c 2 t (ix2 k q) = V c (Pipeline.arrRef spec0 2) (ix2 k q) := by
  obtain ⟨-, -, -, -, e0, e1, -⟩ := tile_at t
  show V c (Pipeline.arrRef spec0 2) (((cfg0.win 2).blk t).view.emb (ix2 k q)) = _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem read_b (c : Dev nD) (t : Fin cfg0.N) (q : Fin 128) :
    iblk0 V c 3 t (ix2 (0 : Fin 1) q) = V c (Pipeline.arrRef spec0 3) (ix2 (0 : Fin 1) q) := by
  obtain ⟨-, -, -, -, -, -, e0, e1, -⟩ := tile_at t
  show V c (Pipeline.arrRef spec0 3) (((cfg0.win 3).blk t).view.emb (ix2 (0 : Fin 1) q)) = _
  refine congrArg _ (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 128 + 1 * q.val = q.val; omega

theorem read_w' (c : Dev nD) (t : Fin cfg0.N) (k : Fin 128) (q : Fin 128) :
    iblk0 V c 4 t (ix2 k q) = V c (Pipeline.arrRef spec0 4) (ix2 k q) := by
  obtain ⟨-, -, -, -, -, -, -, -, e0, e1, -⟩ := tile_at t
  show V c (Pipeline.arrRef spec0 4) (((cfg0.win 4).blk t).view.emb (ix2 k q)) = _
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- Where entry (p, q) of the output's block t sits in the output array. -/
theorem out_at (t : Fin cfg0.N) (p : Fin 5000) (q : Fin 128) :
    ((cfg0.win 5).blk t).view.emb (ix2 p q) = ix2 (row t p) q := by
  obtain ⟨-, -, -, -, -, -, -, -, -, -, e0, e1⟩ := tile_at t
  refine funext fun a => Fin.ext ?_
  match a with
  | ⟨0, _⟩ => show win0_5.index t (0 : Fin 2) * 5000 + 1 * p.val = 5000 * t.val + p.val; omega
  | ⟨1, _⟩ => show win0_5.index t (1 : Fin 2) * 128 + 1 * q.val = q.val; omega

/-! ### What a point writes back, and the array after the grid -/

/-- What point t writes back is block t of the layer's function of the region's arrays. -/
theorem flushed_eq (c : Dev nD) (t : Fin cfg0.N) :
    (dat0 V c).flushed 5 t = ((cfg0.win 5).blk t).view.read (Elt Ideal)
      (dense (V c (Pipeline.arrRef spec0 0)) (V c (Pipeline.arrRef spec0 1)) (V c (Pipeline.arrRef spec0 2))
        (V c (Pipeline.arrRef spec0 4)) (V c (Pipeline.arrRef spec0 3))) := by
  show (cfg0.win 5).cut (grid0.coords t) ((dat0 V c).after 5 t) = _
  rw [after0_5]
  unfold out0_5
  rw [View.canon_unit_zero origin2]
  simp only [View.ld_unit_zero (S := S5000x128) origin2, View.ld_unit_zero (S := S128x128) origin2, View.ld_unit_zero (S := S1x128) origin2]
  funext y
  obtain ⟨p, q, rfl⟩ : ∃ (p : Fin 5000) (q : Fin 128), y = ix2 p q := ⟨y 0, y 1, eq_ix2 y⟩
  refine (Tile.layer1_tile (iblk0 V c 0 t) (iblk0 V c 1 t) (iblk0 V c 2 t) (iblk0 V c 4 t) (iblk0 V c 3 t) p q).trans ?_
  show _ = dense _ _ _ _ _ (((cfg0.win 5).blk t).view.emb (ix2 p q))
  rw [out_at t p q]
  simp only [read_a V c t p, read_x V c t p, read_w V c t, read_w' V c t, read_b V c t]
  rfl

/-- Every row of the output lies in some point's block: row r in block r / 5000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨-, -, -, -, -, -, -, -, -, -, e0, e1⟩ := tile_at t
  have ht : t.val = (i 0).val / 5000 := rfl
  refine ⟨t, flush0_5 t, ?_⟩
  show i ∈ ((View.whole main_v35).slice (win0_5.rect t)).set
  rw [View.set_slice_whole, Rect.mem_set_unit]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the grid is the layer's function of the region's arrays as it finds them. -/
theorem array_eq (c : Dev nD) :
    (dat0 V c).arrAt 5 cfg0.N
      = dense (V c (Pipeline.arrRef spec0 0)) (V c (Pipeline.arrRef spec0 1)) (V c (Pipeline.arrRef spec0 2))
          (V c (Pipeline.arrRef spec0 4)) (V c (Pipeline.arrRef spec0 3)) :=
  (dat0 V c).arrAt_eq_of_cover 5 _ (fun t _ => flushed_eq V c t) covered

end Cert.KernelIdeal.Layer1

end
-- ==== Proof.RefLayers.lean ====
/-
  The reference's two layers are the kernel's two layer functions.

  The reference computes a layer as (a · w + b) + x · w' (then, for the first layer, the maximum with 0), with the
  bias b ([n]) spread over the rows; the kernel's tiles compute (a · w + x · w') + b with the bias as a [1, n] row.
  At an index (r, q) both are sums and products of the same extended reals,
      (S + b[q]) + S'   and   (S + S') + b[q],        S = ∑ₖ a[r,k] · w[k,q],   S' = ∑ₖ x[r,k] · w'[k,q],
  equal because addition of extended reals is commutative and associative (at infinite values too: nothing is
  cancelled or distributed). The reshape [n] → [1, n] reads entry q at (0, q).
-/
import proofs.«101645_j79955111182426_1_alg».proof.Proof.Gen.ReferenceIdeal.Read
import proofs.«101645_j79955111182426_1_alg».proof.Proof.Layer1
import proofs.«101645_j79955111182426_1_alg».proof.Proof.Layer2

noncomputable section

namespace Cert.Layers

open Idealize.ShloMosaic Idealize.ShloMosaic.ValueIdx

/-- A vector of n entries reshaped to one row of n entries reads entry q at (0, q). -/
theorem row128 (b : Cert.KernelIdeal.S128.Idx → Elt Ideal .f32) (q : Fin 128) :
    shapeCast Cert.KernelIdeal.S1x128 b Cert.KernelIdeal.Facts₀.shapeCasts_S128_S1x128 (ix2 (0 : Fin 1) q) = b (ix1 q) :=
  shapeCast_apply b Cert.KernelIdeal.Facts₀.shapeCasts_S128_S1x128 (ix2 (0 : Fin 1) q) (ix1 q)
    ((Shape.rowMajor_val_one (d := ![128]) (ix1 q)).trans
      ((Shape.rowMajor_val_two (d := ![1, 128]) (ix2 (0 : Fin 1) q)).trans (by show (0 : ℕ) * 128 + q.val = q.val; omega)).symm)

theorem row64 (b : Cert.KernelIdeal.S64.Idx → Elt Ideal .f32) (q : Fin 64) :
    shapeCast Cert.KernelIdeal.S1x64 b Cert.KernelIdeal.Facts₀.shapeCasts_S64_S1x64 (ix2 (0 : Fin 1) q) = b (ix1 q) :=
  shapeCast_apply b Cert.KernelIdeal.Facts₀.shapeCasts_S64_S1x64 (ix2 (0 : Fin 1) q) (ix1 q)
    ((Shape.rowMajor_val_one (d := ![64]) (ix1 q)).trans
      ((Shape.rowMajor_val_two (d := ![1, 64]) (ix2 (0 : Fin 1) q)).trans (by show (0 : ℕ) * 64 + q.val = q.val; omega)).symm)

section
open Cert.ReferenceIdeal

/-- The reference's hidden features (after the maximum with 0) are the first layer's function of the aggregated
    features, the node features, the two transposed weights and the bias as a row. -/
theorem hidden_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    Cert.ReferenceIdeal.Read.val_main_v40 (F := Ideal) x0 x1 x2 x3 x4
      = Cert.KernelIdeal.Layer1.dense (Cert.ReferenceIdeal.Read.val_main_v31 (F := Ideal) x0 x1) x0 (Cert.ReferenceIdeal.Read.val_main_v32 (F := Ideal) x2)
          (Cert.ReferenceIdeal.Read.val_main_v37 (F := Ideal) x4) (shapeCast Cert.KernelIdeal.S1x128 x3 Cert.KernelIdeal.Facts₀.shapeCasts_S128_S1x128) := by
  funext i
  obtain ⟨r, q, rfl⟩ : ∃ (r : Fin 100000) (q : Fin 128), i = ix2 r q := ⟨i 0, i 1, eq_ix2 i⟩
  rw [Cert.ReferenceIdeal.Read.val_main_v40_apply, Cert.ReferenceIdeal.Read.val_main_v39_apply, Cert.ReferenceIdeal.Read.val_main_v36_apply, Cert.ReferenceIdeal.Read.val_main_v33_apply,
    Cert.ReferenceIdeal.Read.val_main_v38_apply, Cert.ReferenceIdeal.Read.val_main_v35_apply, Cert.ReferenceIdeal.Read.val_main_v34_apply, Cert.ReferenceIdeal.Read.val_main_call0_v0_apply,
    Cert.ReferenceIdeal.Read.val_main_call0_cst_apply]
  have hl : ∀ k : Fin 128, Cert.ReferenceIdeal.Read.lidx_main_v33 (ix2 r q) k = ix2 r k := fun k => funext fun a => by
    match a with | ⟨0, _⟩ => rfl | ⟨1, _⟩ => rfl
  have hr : ∀ k : Fin 128, Cert.ReferenceIdeal.Read.ridx_main_v33 (ix2 r q) k = ix2 k q := fun k => funext fun a => by
    match a with | ⟨0, _⟩ => rfl | ⟨1, _⟩ => rfl
  have hl' : ∀ k : Fin 128, Cert.ReferenceIdeal.Read.lidx_main_v38 (ix2 r q) k = ix2 r k := fun k => funext fun a => by
    match a with | ⟨0, _⟩ => rfl | ⟨1, _⟩ => rfl
  have hr' : ∀ k : Fin 128, Cert.ReferenceIdeal.Read.ridx_main_v38 (ix2 r q) k = ix2 k q := fun k => funext fun a => by
    match a with | ⟨0, _⟩ => rfl | ⟨1, _⟩ => rfl
  have hb : Cert.ReferenceIdeal.Read.idx_main_v34 (Cert.ReferenceIdeal.Read.idx_main_v35 (ix2 r q)) = ix1 q := funext fun a => by
    match a with | ⟨0, _⟩ => rfl
  simp only [hl, hr, hl', hr', hb]
  unfold Cert.KernelIdeal.Layer1.dense Cert.KernelIdeal.Layer1.entry
  rw [row128]
  simp only [Ideal.maximumf_def, Ideal.addf_def, Ideal.ofBits_def]
  rw [add_right_comm]

/-- The reference's result is the second layer's function of the aggregated hidden features, the hidden features,
    the two transposed weights and the bias as a row. -/
theorem result_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S64x128, .f32⟩ : BufTy).Contents (Elt Ideal))
    (x6 : (⟨S64, .f32⟩ : BufTy).Contents (Elt Ideal)) (x7 : (⟨S64x128, .f32⟩ : BufTy).Contents (Elt Ideal)) :
    Cert.ReferenceIdeal.Read.val_main_v76 (F := Ideal) x0 x1 x2 x3 x4 x5 x6 x7
      = Cert.KernelIdeal.Layer2.dense (Cert.ReferenceIdeal.Read.val_main_v68 (F := Ideal) x0 x1 x2 x3 x4) (Cert.ReferenceIdeal.Read.val_main_v40 (F := Ideal) x0 x1 x2 x3 x4)
          (Cert.ReferenceIdeal.Read.val_main_v69 (F := Ideal) x5) (Cert.ReferenceIdeal.Read.val_main_v74 (F := Ideal) x7)
          (shapeCast Cert.KernelIdeal.S1x64 x6 Cert.KernelIdeal.Facts₀.shapeCasts_S64_S1x64) := by
  funext i
  obtain ⟨r, q, rfl⟩ : ∃ (r : Fin 100000) (q : Fin 64), i = ix2 r q := ⟨i 0, i 1, eq_ix2 i⟩
  rw [Cert.ReferenceIdeal.Read.val_main_v76_apply, Cert.ReferenceIdeal.Read.val_main_v73_apply, Cert.ReferenceIdeal.Read.val_main_v70_apply, Cert.ReferenceIdeal.Read.val_main_v75_apply,
    Cert.ReferenceIdeal.Read.val_main_v72_apply, Cert.ReferenceIdeal.Read.val_main_v71_apply]
  have hl : ∀ k : Fin 128, Cert.ReferenceIdeal.Read.lidx_main_v70 (ix2 r q) k = ix2 r k := fun k => funext fun a => by
    match a with | ⟨0, _⟩ => rfl | ⟨1, _⟩ => rfl
  have hr : ∀ k : Fin 128, Cert.ReferenceIdeal.Read.ridx_main_v70 (ix2 r q) k = ix2 k q := fun k => funext fun a => by
    match a with | ⟨0, _⟩ => rfl | ⟨1, _⟩ => rfl
  have hl' : ∀ k : Fin 128, Cert.ReferenceIdeal.Read.lidx_main_v75 (ix2 r q) k = ix2 r k := fun k => funext fun a => by
    match a with | ⟨0, _⟩ => rfl | ⟨1, _⟩ => rfl
  have hr' : ∀ k : Fin 128, Cert.ReferenceIdeal.Read.ridx_main_v75 (ix2 r q) k = ix2 k q := fun k => funext fun a => by
    match a with | ⟨0, _⟩ => rfl | ⟨1, _⟩ => rfl
  have hb : Cert.ReferenceIdeal.Read.idx_main_v71 (Cert.ReferenceIdeal.Read.idx_main_v72 (ix2 r q)) = ix1 q := funext fun a => by
    match a with | ⟨0, _⟩ => rfl
  simp only [hl, hr, hl', hr', hb]
  unfold Cert.KernelIdeal.Layer2.dense Cert.KernelIdeal.Layer2.entry
  rw [row64]
  simp only [Ideal.addf_def]
  rw [add_right_comm]

end

end Cert.Layers

end
-- ==== Proof.EntryA.lean ====
/-
  What the first grid is handed, and what it leaves.

  The first stretch of host operations computes, from the node features x and the edge list e, the aggregated features
  (the masked neighbour sum plus x, scaled by the inverse degree), the two transposed weights and the bias as a row.
  These are the same operations, in the same order, as the reference's first stages; each array the first grid reads is
  therefore the reference's stage of the same arguments. The grid's output, the hidden features, is then the reference's
  hidden features. The row ids, column ids, mask and inverse degree computed here are read again by the second stretch.
-/
import proofs.«101645_j79955111182426_1_alg».proof.Proof.Gen.KernelIdeal.Frame
import proofs.«101645_j79955111182426_1_alg».proof.Proof.Gen.ReferenceIdeal.Read
import proofs.«101645_j79955111182426_1_alg».proof.Proof.Layer1
import proofs.«101645_j79955111182426_1_alg».proof.Proof.RefLayers

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ### The first grid's five input arrays -/

set_option maxHeartbeats 4000000 in
theorem grid1_a (c : Dev nD) : V1 m ρ c (Pipeline.arrRef spec0 0) = Cert.ReferenceIdeal.Read.val_main_v31 (F := Ideal) (m ((c : Thread nD τ).loc main_arg0)) (m ((c : Thread nD τ).loc main_arg1)) := by
  show StableHlo.after hostOps0 (W0 m ρ c) (Proc.devRef .tc main_v31) = _
  after_results_simp
  rfl

set_option maxHeartbeats 4000000 in
theorem grid1_x (c : Dev nD) : V1 m ρ c (Pipeline.arrRef spec0 1) = (m ((c : Thread nD τ).loc main_arg0)) := by
  show StableHlo.after hostOps0 (W0 m ρ c) (Proc.devRef .tc main_arg0) = _
  after_results_simp

set_option maxHeartbeats 4000000 in
theorem grid1_w (c : Dev nD) : V1 m ρ c (Pipeline.arrRef spec0 2) = Cert.ReferenceIdeal.Read.val_main_v32 (F := Ideal) (m ((c : Thread nD τ).loc main_arg2)) := by
  show StableHlo.after hostOps0 (W0 m ρ c) (Proc.devRef .tc main_v32) = _
  after_results_simp
  rfl

set_option maxHeartbeats 4000000 in
theorem grid1_b (c : Dev nD) : V1 m ρ c (Pipeline.arrRef spec0 3) = shapeCast S1x128 (m ((c : Thread nD τ).loc main_arg3)) Facts₀.shapeCasts_S128_S1x128 := by
  show StableHlo.after hostOps0 (W0 m ρ c) (Proc.devRef .tc main_v34) = _
  after_results_simp
  rfl

set_option maxHeartbeats 4000000 in
theorem grid1_w' (c : Dev nD) : V1 m ρ c (Pipeline.arrRef spec0 4) = Cert.ReferenceIdeal.Read.val_main_v37 (F := Ideal) (m ((c : Thread nD τ).loc main_arg4)) := by
  show StableHlo.after hostOps0 (W0 m ρ c) (Proc.devRef .tc main_v33) = _
  after_results_simp
  rfl

/-! ### The hidden features -/

/-- After the first grid the hidden-features buffer holds the reference's hidden features of the same arguments. -/
theorem hidden (c : Dev nD) :
    W2 m ρ c (Proc.devRef .tc main_v35) = Cert.ReferenceIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 5).trans ((Layer1.array_eq (V1 m ρ) c).trans (by
    rw [grid1_a m ρ c, grid1_x m ρ c, grid1_w m ρ c, grid1_w' m ρ c, grid1_b m ρ c]
    exact (Cert.Layers.hidden_eq _ _ _ _ _).symm))

/-! ### What the second stretch reads of the first: edge-list vectors and three arguments, untouched by the grid -/

set_option maxHeartbeats 4000000 in
theorem kept_v1 (c : Dev nD) : W2 m ρ c (Proc.devRef .tc main_v1) = Cert.ReferenceIdeal.Read.val_main_v1 (F := Ideal) (m ((c : Thread nD τ).loc main_arg1)) :=
  (W2_of_ne m ρ c main_v1 (by decide)).trans (by
    show StableHlo.after hostOps0 (W0 m ρ c) (Proc.devRef .tc main_v1) = _
    after_results_simp
    rfl)

set_option maxHeartbeats 4000000 in
theorem kept_v3 (c : Dev nD) : W2 m ρ c (Proc.devRef .tc main_v3) = Cert.ReferenceIdeal.Read.val_main_v3 (F := Ideal) (m ((c : Thread nD τ).loc main_arg1)) :=
  (W2_of_ne m ρ c main_v3 (by decide)).trans (by
    show StableHlo.after hostOps0 (W0 m ρ c) (Proc.devRef .tc main_v3) = _
    after_results_simp
    rfl)

set_option maxHeartbeats 4000000 in
theorem kept_v5 (c : Dev nD) : W2 m ρ c (Proc.devRef .tc main_v5) = Cert.ReferenceIdeal.Read.val_main_v5 (F := Ideal) (m ((c : Thread nD τ).loc main_arg1)) :=
  (W2_of_ne m ρ c main_v5 (by decide)).trans (by
    show StableHlo.after hostOps0 (W0 m ρ c) (Proc.devRef .tc main_v5) = _
    after_results_simp
    rfl)

set_option maxHeartbeats 4000000 in
theorem kept_v14 (c : Dev nD) : W2 m ρ c (Proc.devRef .tc main_v14) = Cert.ReferenceIdeal.Read.val_main_v14 (F := Ideal) (m ((c : Thread nD τ).loc main_arg1)) :=
  (W2_of_ne m ρ c main_v14 (by decide)).trans (by
    show StableHlo.after hostOps0 (W0 m ρ c) (Proc.devRef .tc main_v14) = _
    after_results_simp
    rfl)

set_option maxHeartbeats 4000000 in
theorem kept_arg5 (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp)

set_option maxHeartbeats 4000000 in
theorem kept_arg6 (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp)

set_option maxHeartbeats 4000000 in
theorem kept_arg7 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results_simp)

end Cert.KernelIdeal.Entry

end
-- ==== Proof.EntryB.lean ====
/-
  What the second grid is handed, and the kernel's result.

  The second stretch of host operations aggregates the hidden features over the same edges (the same row ids, column
  ids, mask and inverse degree the first stretch computed), and transposes the second layer's weights and reshapes its
  bias to a row: the reference's stages again, of the same arguments. The second grid's output array — the kernel's
  result — is therefore the reference's result.
-/
import proofs.«101645_j79955111182426_1_alg».proof.Proof.Layer2
import proofs.«101645_j79955111182426_1_alg».proof.Proof.EntryA

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ### The second grid's five input arrays -/

set_option maxHeartbeats 4000000 in
theorem grid2_a (c : Dev nD) : V3 m ρ c (Pipeline.arrRef spec1 0) = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v52) = _
  after_results_simp
  rw [hidden m ρ c, kept_v1 m ρ c, kept_v3 m ρ c, kept_v5 m ρ c, kept_v14 m ρ c]
  rfl

set_option maxHeartbeats 4000000 in
theorem grid2_x (c : Dev nD) : V3 m ρ c (Pipeline.arrRef spec1 1) = Cert.ReferenceIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v35) = _
  after_results_simp
  exact hidden m ρ c

set_option maxHeartbeats 4000000 in
theorem grid2_w (c : Dev nD) : V3 m ρ c (Pipeline.arrRef spec1 2) = Cert.ReferenceIdeal.Read.val_main_v69 (F := Ideal) (m ((c : Thread nD τ).loc main_arg5)) := by
  show StableHlo.after hostOps1 (W2 m ρ c) (Proc.devRef .tc main_v53) = _
  after_results_simp
  rw [kept_arg5 m ρ c]
  rfl

set_option maxHeartbeats 4000000 in
theorem grid2_b (c : Dev nD) : V3 m ρ c (Pipeline.arrRef spec1 3) = shapeCast S1x64 (m ((c : Thread nD τ).loc main_arg6)) Facts₀.shapeCasts_S64_S1x64 := by
  show StableHlo.after hostOps1 (W2 m ρ c) (Proc.devRef .tc main_v55) = _
  after_results_simp
  rw [kept_arg6 m ρ c]
  rfl

set_option maxHeartbeats 4000000 in
theorem grid2_w' (c : Dev nD) : V3 m ρ c (Pipeline.arrRef spec1 4) = Cert.ReferenceIdeal.Read.val_main_v74 (F := Ideal) (m ((c : Thread nD τ).loc main_arg7)) := by
  show StableHlo.after hostOps1 (W2 m ρ c) (Proc.devRef .tc main_v54) = _
  after_results_simp
  rw [kept_arg7 m ρ c]
  rfl

/-! ### The result -/

/-- The second grid's output array after its write-backs is the reference's result of the same arguments. -/
theorem result (c : Dev nD) :
    (dat1 (V3 m ρ) c).arrAt 5 cfg1.N = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (Layer2.array_eq (V3 m ρ) c).trans (by
    rw [grid2_a m ρ c, grid2_x m ρ c, grid2_w m ρ c, grid2_w' m ρ c, grid2_b m ρ c]
    exact (Cert.Layers.result_eq _ _ _ _ _ _ _ _).symm)

end Cert.KernelIdeal.Entry

end
-- ==== Proof.lean ====
/-
  A two-layer graph convolution: the kernel against its reference, over the extended reals.

  Each layer aggregates features over the edges (a masked gather of the source rows, a scatter-add into the target rows,
  plus the node's own features, scaled by the inverse degree) and then applies a dense map
      out = a · Wₒᵀ + b + x · Wᵣᵀ        (the first layer followed by the maximum with 0).
  Kernel and reference perform the aggregation with the same host operations in the same order. They differ only in the
  dense map: the kernel computes it on 20 row tiles of 5000 rows as (a · Wₒᵀ + x · Wᵣᵀ) + b, with the matrix products'
  operands passed through a narrower float format — the identity on extended reals —, the reference on whole arrays as
  (a · Wₒᵀ + b) + x · Wᵣᵀ. Entry by entry these are sums of the same terms in a different order, equal because addition
  of extended reals is commutative and associative; no finiteness of the inputs is needed.

  The three frames are the generated ones (the reference's is its generated run with the result dropped). The
  idealization rewrote nothing, so the kernel's idealization claim is trivial. The value claim: the kernel's run ends
  with its result at the second grid's output array, that array is the second layer's function of what the grid is
  handed, what each grid is handed are the reference's stages of the same arguments, and the reference's run ends at its
  last stage.
-/
import proofs.«101645_j79955111182426_1_alg».proof.Defs
import proofs.«101645_j79955111182426_1_alg».proof.Proof.Gen.Kernel
import proofs.«101645_j79955111182426_1_alg».proof.Proof.Gen.Kernel.Skeleton
import proofs.«101645_j79955111182426_1_alg».proof.Proof.Gen.Kernel.Launch
import proofs.«101645_j79955111182426_1_alg».proof.Proof.Gen.Kernel.Points
import proofs.«101645_j79955111182426_1_alg».proof.Proof.Gen.Kernel.Frame
import proofs.«101645_j79955111182426_1_alg».proof.Proof.Gen.KernelIdeal
import proofs.«101645_j79955111182426_1_alg».proof.Proof.Gen.KernelIdeal.Skeleton
import proofs.«101645_j79955111182426_1_alg».proof.Proof.Gen.KernelIdeal.Launch
import proofs.«101645_j79955111182426_1_alg».proof.Proof.Gen.KernelIdeal.Points
import proofs.«101645_j79955111182426_1_alg».proof.Proof.Gen.KernelIdeal.Frame
import proofs.«101645_j79955111182426_1_alg».proof.Proof.Gen.ReferenceIdeal
import proofs.«101645_j79955111182426_1_alg».proof.Proof.Gen.ReferenceIdeal.Run
import proofs.«101645_j79955111182426_1_alg».proof.Proof.Gen.ReferenceIdeal.Read
import proofs.«101645_j79955111182426_1_alg».proof.Proof.Gen.Pre_finite_inputs
import proofs.«101645_j79955111182426_1_alg».proof.Proof.HeldRun
import proofs.«101645_j79955111182426_1_alg».proof.Proof.EntryB
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end with the same result array: the reference's last stage of the (agreeing) arguments. -/
theorem algebraic : Cert.algebraic_KernelIdeal_ReferenceIdeal := by
  intro m ρ m' ρ' _ hagree
  refine ⟨fun c => Cert.ReferenceIdeal.Read.val_main_v76 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Entry.result m ρ c), (h c).2⟩)
      (Cert.KernelIdeal.Held.run_named (F := Ideal) m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7⟩ := hagree c
    rw [(h c).1, Cert.ReferenceIdeal.Read.val_main_v76_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
